-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x64 : Shape := ⟨4, ![2, 16, 1024, 64]⟩
abbrev S1x16x1024x1024 : Shape := ⟨4, ![1, 16, 1024, 1024]⟩
abbrev S_ : Shape := ⟨0, ![]⟩

class Facts : Prop where
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_
  h_S_ : 0 < S_.numel
  bcast_S_S1x16x1024x1024 : S_.BroadcastsInDim S1x16x1024x1024 (![] : Fin 0 → Fin S1x16x1024x1024.rank)
  reducesTo_S1x16x1024x1024_S_d0_1_2_3 : S1x16x1024x1024.ReducesTo [0, 1, 2, 3] S_

variable [Facts]

def fn_part1 {F : FTy → Type} [FloatOps F] (main_v13 : IVec S_ 1) (main_v16 : IVec S1x16x1024x1024 1) : IVec S_ 1 :=
  let main_c_5 : IVec S_ 1 := constantI S_ 1 1#1
  let main_v17 : IVec S_ 1 := (fun x v => Host.reduce IntOp.andi x v reducesTo_S1x16x1024x1024_S_d0_1_2_3 h_S_) main_v16 main_c_5
  let main_v18 : IVec S_ 1 := andi main_v13 main_v17
  main_v18

def fn {F : FTy → Type} [FloatOps F] (main_arg0 : FVec F S2x16x1024x64 .f32) (main_arg1 : FVec F S2x16x1024x64 .f32) (main_arg2 : FVec F S2x16x1024x64 .f32) (main_arg3 : FVec F S1x16x1024x1024 .f32) : IVec S_ 1 :=
  let main_v0 : FVec F S2x16x1024x64 .f32 := Host.absf main_arg0
  let main_cst : FVec F S_ .f32 := constant S_ .f32 0x7F800000#32
  let main_v1 : FVec F S2x16x1024x64 .f32 := broadcastInDim S2x16x1024x64 ![] bcast_S_S2x16x1024x64 main_cst
  let main_v2 : IVec S2x16x1024x64 1 := cmpf .olt main_v0 main_v1
  let main_c : IVec S_ 1 := constantI S_ 1 1#1
  let main_v3 : IVec S_ 1 := (fun x v => Host.reduce IntOp.andi x v reducesTo_S2x16x1024x64_S_d0_1_2_3 h_S_) main_v2 main_c
  let main_v4 : FVec F S2x16x1024x64 .f32 := Host.absf main_arg1
  let main_cst_0 : FVec F S_ .f32 := constant S_ .f32 0x7F800000#32
  let main_v5 : FVec F S2x16x1024x64 .f32 := broadcastInDim S2x16x1024x64 ![] bcast_S_S2x16x1024x64 main_cst_0
  let main_v6 : IVec S2x16x1024x64 1 := cmpf .olt main_v4 main_v5
  let main_c_1 : IVec S_ 1 := constantI S_ 1 1#1
  let main_v7 : IVec S_ 1 := (fun x v => Host.reduce IntOp.andi x v reducesTo_S2x16x1024x64_S_d0_1_2_3 h_S_) main_v6 main_c_1
  let main_v8 : IVec S_ 1 := andi main_v3 main_v7
  let main_v9 : FVec F S2x16x1024x64 .f32 := Host.absf main_arg2
  let main_cst_2 : FVec F S_ .f32 := constant S_ .f32 0x7F800000#32
  let main_v10 : FVec F S2x16x1024x64 .f32 := broadcastInDim S2x16x1024x64 ![] bcast_S_S2x16x1024x64 main_cst_2
  let main_v11 : IVec S2x16x1024x64 1 := cmpf .olt main_v9 main_v10
  let main_c_3 : IVec S_ 1 := constantI S_ 1 1#1
  let main_v12 : IVec S_ 1 := (fun x v => Host.reduce IntOp.andi x v reducesTo_S2x16x1024x64_S_d0_1_2_3 h_S_) main_v11 main_c_3
  let main_v13 : IVec S_ 1 := andi main_v8 main_v12
  let main_v14 : FVec F S1x16x1024x1024 .f32 := Host.absf main_arg3
  let main_cst_4 : FVec F S_ .f32 := constant S_ .f32 0x7F800000#32
  let main_v15 : FVec F S1x16x1024x1024 .f32 := broadcastInDim S1x16x1024x1024 ![] bcast_S_S1x16x1024x1024 main_cst_4
  let main_v16 : IVec S1x16x1024x1024 1 := cmpf .olt main_v14 main_v15
  fn_part1 (F := F) main_v13 main_v16
-- ==== Kernel.lean ====
abbrev S2x16x1024x64 : Shape := ⟨4, ![2, 16, 1024, 64]⟩
abbrev S1x16x1024x1024 : Shape := ⟨4, ![1, 16, 1024, 1024]⟩
abbrev S2x1x512x64 : Shape := ⟨4, ![2, 1, 512, 64]⟩
abbrev S2x1x1024x64 : Shape := ⟨4, ![2, 1, 1024, 64]⟩
abbrev S1x1x512x1024 : Shape := ⟨4, ![1, 1, 512, 1024]⟩
abbrev S2x512x64 : Shape := ⟨3, ![2, 512, 64]⟩
abbrev S2x1024x64 : Shape := ⟨3, ![2, 1024, 64]⟩
abbrev S2x512x1024 : Shape := ⟨3, ![2, 512, 1024]⟩
abbrev S512x1024 : Shape := ⟨2, ![512, 1024]⟩
abbrev S1x512x1024 : Shape := ⟨3, ![1, 512, 1024]⟩
abbrev S2x512 : Shape := ⟨2, ![2, 512]⟩
abbrev S2x512x1 : Shape := ⟨3, ![2, 512, 1]⟩
abbrev S2x1024x16x64 : Shape := ⟨4, ![2, 1024, 16, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x16x1024x64, .f32⟩
  | .hbm, ⟨1, _⟩ => ⟨S2x16x1024x64, .f32⟩
  | .hbm, ⟨2, _⟩ => ⟨S2x16x1024x64, .f32⟩
  | .hbm, ⟨3, _⟩ => ⟨S1x16x1024x1024, .f32⟩
  | .hbm, ⟨4, _⟩ => ⟨S2x16x1024x64, .f32⟩
  | .hbm, ⟨5, _⟩ => ⟨S2x1024x16x64, .f32⟩
  | .local _ .vmem, ⟨0, _⟩ => ⟨S2x1x512x64, .f32⟩
  | .local _ .vmem, ⟨1, _⟩ => ⟨S2x1x512x64, .f32⟩
  | .local _ .vmem, ⟨2, _⟩ => ⟨S2x1x1024x64, .f32⟩
  | .local _ .vmem, ⟨3, _⟩ => ⟨S2x1x1024x64, .f32⟩
  | .local _ .vmem, ⟨4, _⟩ => ⟨S2x1x1024x64, .f32⟩
  | .local _ .vmem, ⟨5, _⟩ => ⟨S2x1x1024x64, .f32⟩
  | .local _ .vmem, ⟨6, _⟩ => ⟨S1x1x512x1024, .f32⟩
  | .local _ .vmem, ⟨7, _⟩ => ⟨S1x1x512x1024, .f32⟩
  | .local _ .vmem, ⟨8, _⟩ => ⟨S2x1x512x64, .f32⟩
  | .local _ .vmem, ⟨9, _⟩ => ⟨S2x1x512x64, .f32⟩
  | _, _ => ⟨S2x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S2x1x512x64_S2x1x512x64_0_0_0_0 : ∀ a, (![0, 0, 0, 0] : Fin 4 → Nat) a + S2x1x512x64.size a ≤ S2x1x512x64.size a
  h_S2x1x512x64 : 0 < S2x1x512x64.numel
  shapeCasts_S2x1x512x64_S2x512x64 : S2x1x512x64.ShapeCasts S2x512x64
  bitsLt_bf16_f32 : FTy.bits .bf16 < FTy.bits .f32
  inb_S2x1x1024x64_S2x1x1024x64_0_0_0_0 : ∀ a, (![0, 0, 0, 0] : Fin 4 → Nat) a + S2x1x1024x64.size a ≤ S2x1x1024x64.size a
  h_S2x1x1024x64 : 0 < S2x1x1024x64.numel
  shapeCasts_S2x1x1024x64_S2x1024x64 : S2x1x1024x64.ShapeCasts S2x1024x64
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  shapeCasts_S512x1024_S1x512x1024 : S512x1024.ShapeCasts S1x512x1024
  broadcasts_S1x512x1024_S2x512x1024 : S1x512x1024.Broadcasts S2x512x1024
  reduces_S2x512x1024_S2x512 : S2x512x1024.Reduces [2] S2x512
  shapeCasts_S2x512_S2x512x1 : S2x512.ShapeCasts S2x512x1
  broadcasts_S2x512x1_S2x512x1024 : S2x512x1.Broadcasts S2x512x1024
  shapeCasts_S2x512x64_S2x1x512x64 : S2x512x64.ShapeCasts S2x1x512x64
  transposes_S2x16x1024x64_S2x1024x16x64_0_2_1_3 : S2x16x1024x64.Transposes [0, 2, 1, 3] S2x1024x16x64
  dot_S2x512x64_S2x1024x64_S2x512x1024_2_2_1_1_0_0_wf : DotDims.WF S2x512x64 S2x1024x64 S2x512x1024 [2] [2] [1] [1] [0] [0]
  dot_S2x512x1024_S2x1024x64_S2x512x64_2_1_1_2_0_0_wf : DotDims.WF S2x512x1024 S2x1024x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x64.size a ≤ S2x16x1024x64.size a
  hwx0_0 : ∀ i : grid0.Coords, EltTy.bits .f32 = 32 ∨ (Rect.block (s := S2x16x1024x64) S2x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x64.size a ≤ S2x16x1024x64.size a
  hwx0_1 : ∀ i : grid0.Coords, EltTy.bits .f32 = 32 ∨ (Rect.block (s := S2x16x1024x64) S2x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x1024x64.size a ≤ S2x16x1024x64.size a
  hwx0_2 : ∀ i : grid0.Coords, EltTy.bits .f32 = 32 ∨ (Rect.block (s := S2x16x1024x64) S2x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S1x16x1024x1024.size a
  hwx0_3 : ∀ i : grid0.Coords, EltTy.bits .f32 = 32 ∨ (Rect.block (s := S1x16x1024x1024) S1x1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512x64.size a ≤ S2x16x1024x64.size a
  hwx0_4 : ∀ i : grid0.Coords, EltTy.bits .f32 = 32 ∨ (Rect.block (s := S2x16x1024x64) S2x1x512x64.size (cc0_transform_4 i) (hinb0_4 i)).WholeWords (EltTy.packing .f32)

variable [Facts₀]

def dot_S2x512x64_S2x1024x64_S2x512x1024_2_2_1_1_0_0 : DotDims S2x512x64 S2x1024x64 S2x512x1024 where
  lhsContracting := [2]
  rhsContracting := [2]
  lhsNonContracting := [1]
  rhsNonContracting := [1]
  lhsBatch := [0]
  rhsBatch := [0]
  wf := dot_S2x512x64_S2x1024x64_S2x512x1024_2_2_1_1_0_0_wf
def dot_S2x512x1024_S2x1024x64_S2x512x64_2_1_1_2_0_0 : DotDims S2x512x1024 S2x1024x64 S2x512x64 where
  lhsContracting := [2]
  rhsContracting := [1]
  lhsNonContracting := [1]
  rhsNonContracting := [2]
  lhsBatch := [0]
  rhsBatch := [0]
  wf := dot_S2x512x1024_S2x1024x64_S2x512x64_2_1_1_2_0_0_wf

abbrev win0_0 : Pipeline.Window sig grid0 :=
  Pipeline.Window.ofSpec (Memref.whole main_arg0) S2x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x1024x64 : Shape := ⟨4, ![2, 16, 1024, 64]⟩
abbrev S1x16x1024x1024 : Shape := ⟨4, ![1, 16, 1024, 1024]⟩
abbrev S2x16x1024x1024 : Shape := ⟨4, ![2, 16, 1024, 1024]⟩
abbrev S_ : Shape := ⟨0, ![]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩
abbrev S2x1024x16x64 : Shape := ⟨4, ![2, 1024, 16, 64]⟩

abbrev nBuf : Space → Nat
  | .hbm => 32
  | .vmem => 0
  | .smem => 0
  | _ => 0

abbrev bufTy : (tb : Table) → Fin (tcTables nBuf tb) → BufTy
  | .hbm, ⟨0, _⟩ => ⟨S2x16x1024x64, .f32⟩
  | .hbm, ⟨1, _⟩ => ⟨S2x16x1024x64, .f32⟩
  | .hbm, ⟨2, _⟩ => ⟨S2x16x1024x64, .f32⟩
  | .hbm, ⟨3, _⟩ => ⟨S1x16x1024x1024, .f32⟩
  | .hbm, ⟨4, _⟩ => ⟨S2x16x1024x1024, .f32⟩
  | .hbm, ⟨5, _⟩ => ⟨S_, .f32⟩
  | .hbm, ⟨6, _⟩ => ⟨S2x16x1024x1024, .f32⟩
  | .hbm, ⟨7, _⟩ => ⟨S2x16x1024x1024, .f32⟩
  | .hbm, ⟨8, _⟩ => ⟨S_, .f32⟩
  | .hbm, ⟨9, _⟩ => ⟨S1x16x1024x1024, .f32⟩
  | .hbm, ⟨10, _⟩ => ⟨S1x16x1024x1024, .f32⟩
  | .hbm, ⟨11, _⟩ => ⟨S_, .f32⟩
  | .hbm, ⟨12, _⟩ => ⟨S1x16x1024x1024, .f32⟩
  | .hbm, ⟨13, _⟩ => ⟨S1x16x1024x1024, .f32⟩
  | .hbm, ⟨14, _⟩ => ⟨S2x16x1024x1024, .f32⟩
  | .hbm, ⟨15, _⟩ => ⟨S2x16x1024x1024, .f32⟩
  | .hbm, ⟨16, _⟩ => ⟨S_, .f32⟩
  | .hbm, ⟨17, _⟩ => ⟨S2x16x1024, .f32⟩
  | .hbm, ⟨18, _⟩ => ⟨S_, .f32⟩
  | .hbm, ⟨19, _⟩ => ⟨S2x16x1024, .f32⟩
  | .hbm, ⟨20, _⟩ => ⟨S2x16x1024, .f32⟩
  | .hbm, ⟨21, _⟩ => ⟨S2x16x1024x1, .f32⟩
  | .hbm, ⟨22, _⟩ => ⟨S2x16x1024x1024, .f32⟩
  | .hbm, ⟨23, _⟩ => ⟨S2x16x1024x1024, .f32⟩
  | .hbm, ⟨24, _⟩ => ⟨S2x16x1024x1024, .f32⟩
  | .hbm, ⟨25, _⟩ => ⟨S_, .f32⟩
  | .hbm, ⟨26, _⟩ => ⟨S2x16x1024, .f32⟩
  | .hbm, ⟨27, _⟩ => ⟨S2x16x1024x1, .f32⟩
  | .hbm, ⟨28, _⟩ => ⟨S2x16x1024x1024, .f32⟩
  | .hbm, ⟨29, _⟩ => ⟨S2x16x1024x1024, .f32⟩
  | .hbm, ⟨30, _⟩ => ⟨S2x16x64x1024, .f32⟩
  | .hbm, ⟨31, _⟩ => ⟨S2x1024x16x64, .f32⟩
  | _, _ => ⟨S2x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2x16x1024x1024 : S_.BroadcastsInDim S2x16x1024x1024 (![] : Fin 0 → Fin S2x16x1024x1024.rank)
  bcast_S_S1x16x1024x1024 : S_.BroadcastsInDim S1x16x1024x1024 (![] : Fin 0 → Fin S1x16x1024x1024.rank)
  bcast_S1x16x1024x1024_S2x16x1024x1024_0_1_2_3 : S1x16x1024x1024.BroadcastsInDim S2x16x1024x1024 (![0, 1, 2, 3] : Fin 4 → Fin S2x16x1024x1024.rank)
  reducesTo_S2x16x1024x1024_S2x16x1024_d3 : S2x16x1024x1024.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x1024_0_1_2_3 : S2x16x1024x1.BroadcastsInDim S2x16x1024x1024 (![0, 1, 2, 3] : Fin 4 → Fin S2x16x1024x1024.rank)
  transposes_S2x16x64x1024_S2x1024x16x64_0_3_1_2 : S2x16x64x1024.Transposes [0, 3, 1, 2] S2x1024x16x64
  dot_S2x16x1024x64_S2x16x1024x64_S2x16x1024x1024_3_3_2_2_01_01_wf : DotDims.WF S2x16x1024x64 S2x16x1024x64 S2x16x1024x1024 [3] [3] [2] [2] [0, 1] [0, 1]
  dot_S2x16x1024x64_S2x16x1024x1024_S2x16x64x1024_2_3_3_2_01_01_wf : DotDims.WF S2x16x1024x64 S2x16x1024x1024 S2x16x64x1024 [2] [3] [3] [2] [0, 1] [0, 1]

variable [Facts₀]

def dot_S2x16x1024x64_S2x16x1024x64_S2x16x1024x1024_3_3_2_2_01_01 : DotDims S2x16x1024x64 S2x16x1024x64 S2x16x1024x1024 where
  lhsContracting := [3]
  rhsContracting := [3]
  lhsNonContracting := [2]
  rhsNonContracting := [2]
  lhsBatch := [0, 1]
  rhsBatch := [0, 1]
  wf := dot_S2x16x1024x64_S2x16x1024x64_S2x16x1024x1024_3_3_2_2_01_01_wf
def dot_S2x16x1024x64_S2x16x1024x1024_S2x16x64x1024_2_3_3_2_01_01 : DotDims S2x16x1024x64 S2x16x1024x1024 S2x16x64x1024 where
  lhsContracting := [2]
  rhsContracting := [3]
  lhsNonContracting := [3]
  rhsNonContracting := [2]
  lhsBatch := [0, 1]
  rhsBatch := [0, 1]
  wf := dot_S2x16x1024x64_S2x16x1024x1024_S2x16x64x1024_2_3_3_2_01_01_wf

class Facts : Prop extends Facts₀ where

variable [Facts]
-- ==== Proof.BlockStages.lean ====
/-
  The kernel body's arithmetic as three stages over its four input blocks, at the ideal values: the logits
  [2, 512, 1024] of the query block against the key block, scaled by 1/8 and biased by (1 − mask) · (−10000); the
  row softmax of the logits (each row's maximum from −∞, the shifted exponentials, their row sum, the quotient); and
  the weights against the value block. The body's one stored value is the three stages composed.
-/
import proofs.«122325_j4355096838799_2_alg».proof.Proof.Gen.KernelIdeal.Skeleton
import Idealize.ShloMosaic.PureOps.Ideal

noncomputable section

namespace Cert.KernelIdeal.BlockStages

open Cert.KernelIdeal Cert.KernelIdeal.Gen Idealize.ShloMosaic

/-! ## The three stages -/

/-- The logits of a query block against a key block under a mask block. -/
def scoresOf (x0 : Vec Ideal S2x1x512x64 .f32) (x1 : Vec Ideal S2x1x1024x64 .f32) (x3 : Vec Ideal S1x1x512x1024 .f32) :
    FVec Ideal S2x512x1024 .f32 :=
  addf (mulf (matmul dot_S2x512x64_S2x1024x64_S2x512x1024_2_2_1_1_0_0 none
        (truncf .bf16 (shapeCast S2x512x64 x0 shapeCasts_S2x1x512x64_S2x512x64) bitsLt_bf16_f32)
        (truncf .bf16 (shapeCast S2x1024x64 x1 shapeCasts_S2x1x1024x64_S2x1024x64) bitsLt_bf16_f32)
        (constant S2x512x1024 .f32 0x00000000#32))
      (broadcast S2x512x1024 (Scalar.ofBits .f32 0x3E000000#32 : Ideal .f32)))
    (broadcastTo S2x512x1024 (shapeCast S1x512x1024
        (mulf (subf (broadcast S512x1024 (Scalar.ofBits .f32 0x3F800000#32 : Ideal .f32))
            (shapeCast S512x1024 x3 shapeCasts_S1x1x512x1024_S512x1024))
          (broadcast S512x1024 (Scalar.ofBits .f32 0xC61C4000#32 : Ideal .f32)))
        shapeCasts_S512x1024_S1x512x1024) broadcasts_S1x512x1024_S2x512x1024)

/-- Each row's maximum, from −∞ and once more against −∞. -/
def rowMaxOf (s : FVec Ideal S2x512x1024 .f32) : FVec Ideal S2x512 .f32 :=
  maximumf (broadcast S2x512 (Scalar.ofBits .f32 0xFF800000#32 : Ideal .f32))
    (multiReduction .maximumf [2] S2x512 s 0xFF800000#32 reduces_S2x512x1024_S2x512 (.inl rfl) rfl)

/-- The exponentials of the entries shifted by their row's maximum. -/
def shiftedOf (s : FVec Ideal S2x512x1024 .f32) : FVec Ideal S2x512x1024 .f32 :=
  exp (subf s (broadcastTo S2x512x1024 (shapeCast S2x512x1 (rowMaxOf s) shapeCasts_S2x512_S2x512x1) broadcasts_S2x512x1_S2x512x1024))

/-- The row softmax. -/
def softmaxOf (s : FVec Ideal S2x512x1024 .f32) : FVec Ideal S2x512x1024 .f32 :=
  divf (shiftedOf s) (broadcastTo S2x512x1024 (shapeCast S2x512x1
    (multiReduction .add [2] S2x512 (shiftedOf s) 0x00000000#32 reduces_S2x512x1024_S2x512 (.inl rfl) rfl)
    shapeCasts_S2x512_S2x512x1) broadcasts_S2x512x1_S2x512x1024)

/-- The weights against a value block. -/
def contextOf (p : FVec Ideal S2x512x1024 .f32) (x2 : Vec Ideal S2x1x1024x64 .f32) : FVec Ideal S2x512x64 .f32 :=
  matmul dot_S2x512x1024_S2x1024x64_S2x512x64_2_1_1_2_0_0 none (truncf .bf16 p bitsLt_bf16_f32)
    (truncf .bf16 (shapeCast S2x1024x64 x2 shapeCasts_S2x1x1024x64_S2x1024x64) bitsLt_bf16_f32)
    (constant S2x512x64 .f32 0x00000000#32)

/-- The body's arithmetic is the three stages composed. -/
theorem pay2_eq (x0 : Vec Ideal S2x1x512x64 .f32) (x1 x2 : Vec Ideal S2x1x1024x64 .f32) (x3 : Vec Ideal S1x1x512x1024 .f32) :
    k0_pay2 (F := Ideal) x0 x1 x2 x3 = contextOf (softmaxOf (scoresOf x0 x1 x3)) x2 := rfl

end Cert.KernelIdeal.BlockStages

end
-- ==== Proof.Attention.lean ====
/-
  Scaled, masked dot-product attention over the extended reals, as one function of four arrays: queries, keys
  and values of shape [2, 16, 1024, 64] (batch, head, position, feature) and a mask of shape [1, 16, 1024, 1024]
  (head, query position, key position), shared by the batch.

  For batch b, head n and query position f the logit of key position t is
      (Σ_e Q[b,n,f,e] · K[b,n,t,e]) · 1/8 + (1 − M[0,n,f,t]) · (−10000),
  the weight of t is the softmax of that row — exp (s t − max s) divided by the sum of those exponentials over the
  row, the maximum taken against −∞ from −∞ —, and the result at feature h is Σ_t weight t · V[b,n,t,h].
  The four float constants are kept as the f32 words the programs spell, never evaluated: 0x3E000000 is 1/8,
  0x3F800000 is 1, 0xC61C4000 is −10000 and 0xFF800000 is −∞.

  The result is stated in two layouts of the same numbers: [batch, head, position, feature], and
  [batch, position, head, feature].
-/
import Idealize.ShloMosaic.PureOps.Ideal
import Idealize.ShloMosaic.Lib.ValueIdx

noncomputable section

namespace Cert.Attention

open Idealize.ShloMosaic Idealize.ShloMosaic.ValueIdx

/-- The scale 1/8 = 1/sqrt 64, as its f32 word. -/
abbrev wScale : EReal := Ideal.ofBits .f32 0x3E000000#32
/-- The number 1, as its f32 word. -/
abbrev wOne : EReal := Ideal.ofBits .f32 0x3F800000#32
/-- The masking bias −10000, as its f32 word. -/
abbrev wBias : EReal := Ideal.ofBits .f32 0xC61C4000#32
/-- −∞, as its f32 word: the value a row's maximum starts from. -/
abbrev wNegInf : EReal := Ideal.ofBits .f32 0xFF800000#32

/-- A logit from the raw dot product `qk` and the mask entry `mk`: scaled, plus the bias where the mask is off. -/
def logit (qk mk : EReal) : EReal := qk * wScale + (wOne - mk) * wBias

/-- The maximum of a row, taken from −∞ and once more against −∞. -/
def rowMax {n : ℕ} (s : Fin n → EReal) : EReal :=
  max wNegInf ((Finset.univ : Finset (Fin n)).fold max wNegInf s)

/-- The exponential of an entry shifted by the row's maximum. -/
def shifted {n : ℕ} (s : Fin n → EReal) (t : Fin n) : EReal := Ideal.exp (s t - rowMax s)

/-- The softmax weight of entry `t` of the row `s`. -/
def weight {n : ℕ} (s : Fin n → EReal) (t : Fin n) : EReal :=
  Ideal.div (shifted s t) (∑ u : Fin n, shifted s u)

/-- The shape of the queries, keys and values: [batch, head, position, feature]. -/
abbrev SQ : Shape := ⟨4, ![2, 16, 1024, 64]⟩
/-- The shape of the mask: [1, head, query position, key position]. -/
abbrev SM : Shape := ⟨4, ![1, 16, 1024, 1024]⟩
/-- The shape of the result with the head axis third: [batch, position, head, feature]. -/
abbrev SO : Shape := ⟨4, ![2, 1024, 16, 64]⟩

/-- The row of logits of batch `b`, head `n`, query position `f`. -/
def scores (Q K : SQ.Idx → EReal) (M : SM.Idx → EReal) (b : Fin 2) (n : Fin 16) (f : Fin 1024) (t : Fin 1024) : EReal :=
  logit (∑ e : Fin 64, Q (ix4 b n f e) * K (ix4 b n t e)) (M (ix4 (0 : Fin 1) n f t))

/-- Attention's result at batch `b`, head `n`, query position `f`, feature `h`. -/
def attend (Q K V : SQ.Idx → EReal) (M : SM.Idx → EReal) (b : Fin 2) (n : Fin 16) (f : Fin 1024) (h : Fin 64) : EReal :=
  ∑ t : Fin 1024, weight (scores Q K M b n f) t * V (ix4 b n t h)

/-- The result laid out [batch, head, position, feature]. -/
def headMajor (Q K V : SQ.Idx → EReal) (M : SM.Idx → EReal) : SQ.Idx → EReal :=
  fun i => attend Q K V M (i 0) (i 1) (i 2) (i 3)

/-- The result laid out [batch, position, head, feature]. -/
def positionMajor (Q K V : SQ.Idx → EReal) (M : SM.Idx → EReal) : SO.Idx → EReal :=
  fun i => attend Q K V M (i 0) (i 2) (i 1) (i 3)

/-- The second layout is the first with the two middle axes exchanged. -/
theorem positionMajor_apply (Q K V : SQ.Idx → EReal) (M : SM.Idx → EReal) (i : SO.Idx) :
    positionMajor Q K V M i = headMajor Q K V M (ix4 (i 0) (i 2) (i 1) (i 3)) := rfl

end Cert.Attention

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.BlockOps.lean ====
/-
  The kernel body's operations that are not pointwise, each read at an index given by literal coordinates, at the
  ideal values. A block of queries, keys or values [2, 1, rows, 64] viewed [2, rows, 64] and a mask block
  [1, 1, 512, 1024] viewed [512, 1024] keep their entries (the unit axes carry coordinate 0); a [512, 1024] array
  given a leading unit axis and broadcast over the batch is read at its last two coordinates; a row maximum and a
  row sum over the last axis of a [2, 512, 1024] array are a fold of max and a sum over that axis's 1024
  coordinates; the two batched products are sums over the contracted axis: 64 features for queries against keys,
  1024 key positions for weights against values.
-/
import proofs.«122325_j4355096838799_2_alg».proof.Proof.Gen.KernelIdeal
import proofs.«122325_j4355096838799_2_alg».proof.Proof.LibKeepdims
import Idealize.ShloMosaic.Lib.Pipeline.Value
import Idealize.ShloMosaic.Lib.ValueIdx
import Idealize.ShloMosaic.PureOps.Ideal.Laws

noncomputable section

namespace Cert.KernelIdeal.BlockOps

open Cert.KernelIdeal Idealize.ShloMosaic Idealize.ShloMosaic.ValueIdx
open Cert.KernelIdeal.Facts₀

variable {α : Type}

/-! ## Unit axes dropped and added -/

/-- A [2, 1, 512, 64] block viewed [2, 512, 64]: entry (b, r, e) is the block's (b, 0, r, e). -/
theorem dropUnit_q (x : S2x1x512x64.Idx → α) (h : S2x1x512x64.ShapeCasts S2x512x64) (b : Fin 2) (r : Fin 512) (e : Fin 64) :
    shapeCast S2x512x64 x h (ix3 b r e) = x (ix4 b (0 : Fin 1) r e) := by
  refine shapeCast_apply x h (ix3 b r e) (ix4 b (0 : Fin 1) r e) ?_
  rw [Shape.rowMajor_val_three, Shape.rowMajor_val_four]
  show ((b.val * 1 + 0) * 512 + r.val) * 64 + e.val = (b.val * 512 + r.val) * 64 + e.val
  omega

/-- A [2, 1, 1024, 64] block viewed [2, 1024, 64]: entry (b, t, e) is the block's (b, 0, t, e). -/
theorem dropUnit_kv (x : S2x1x1024x64.Idx → α) (h : S2x1x1024x64.ShapeCasts S2x1024x64) (b : Fin 2) (t : Fin 1024) (e : Fin 64) :
    shapeCast S2x1024x64 x h (ix3 b t e) = x (ix4 b (0 : Fin 1) t e) := by
  refine shapeCast_apply x h (ix3 b t e) (ix4 b (0 : Fin 1) t e) ?_
  rw [Shape.rowMajor_val_three, Shape.rowMajor_val_four]
  show ((b.val * 1 + 0) * 1024 + t.val) * 64 + e.val = (b.val * 1024 + t.val) * 64 + e.val
  omega

/-- A [1, 1, 512, 1024] block viewed [512, 1024]: entry (r, t) is the block's (0, 0, r, t). -/
theorem dropUnit_mask (x : S1x1x512x1024.Idx → α) (h : S1x1x512x1024.ShapeCasts S512x1024) (r : Fin 512) (t : Fin 1024) :
    shapeCast S512x1024 x h (ix2 r t) = x (ix4 (0 : Fin 1) (0 : Fin 1) r t) := by
  refine shapeCast_apply x h (ix2 r t) (ix4 (0 : Fin 1) (0 : Fin 1) r t) ?_
  rw [Shape.rowMajor_val_two, Shape.rowMajor_val_four]
  show ((0 * 1 + 0) * 512 + r.val) * 1024 + t.val = r.val * 1024 + t.val
  omega

/-- A [2, 512, 64] array viewed as a [2, 1, 512, 64] block: entry (b, 0, r, e) is the array's (b, r, e). -/
theorem addUnit_out (x : S2x512x64.Idx → α) (h : S2x512x64.ShapeCasts S2x1x512x64) (b : Fin 2) (u : Fin 1) (r : Fin 512) (e : Fin 64) :
    shapeCast S2x1x512x64 x h (ix4 b u r e) = x (ix3 b r e) := by
  refine shapeCast_apply x h (ix4 b u r e) (ix3 b r e) ?_
  rw [Shape.rowMajor_val_three, Shape.rowMajor_val_four]
  show (b.val * 512 + r.val) * 64 + e.val = ((b.val * 1 + u.val) * 512 + r.val) * 64 + e.val
  have hu : u.val = 0 := by have := u.isLt; omega
  rw [hu]; omega

/-- A [512, 1024] array given a leading unit axis and broadcast over the batch: entry (b, r, t) is the array's (r, t). -/
theorem batchBroadcast (x : S512x1024.Idx → α) (h1 : S512x1024.ShapeCasts S1x512x1024)
    (h2 : S1x512x1024.Broadcasts S2x512x1024) (b : Fin 2) (r : Fin 512) (t : Fin 1024) :
    broadcastTo S2x512x1024 (shapeCast S1x512x1024 x h1) h2 (ix3 b r t) = x (ix2 r t) := by
  refine (broadcastTo_apply _ h2 (ix3 b r t) (ix3 (0 : Fin 1) r t) fun ax => ?_).trans ?_
  · match ax with
    | ⟨0, _⟩ => exact (if_pos rfl).symm
    | ⟨1, _⟩ => show r.val = if (512 : Nat) = 1 then 0 else r.val; rw [if_neg (by decide)]
    | ⟨2, _⟩ => show t.val = if (1024 : Nat) = 1 then 0 else t.val; rw [if_neg (by decide)]
  · refine shapeCast_apply x h1 (ix3 (0 : Fin 1) r t) (ix2 r t) ?_
    rw [Shape.rowMajor_val_two, Shape.rowMajor_val_three]
    show r.val * 1024 + t.val = (0 * 512 + r.val) * 1024 + t.val
    omega

/-- A [2, 512] array given a trailing unit axis and broadcast along it: entry (b, r, t) is the array's (b, r). -/
theorem rowBroadcast (x : S2x512.Idx → α) (h1 : S2x512.ShapeCasts S2x512x1)
    (h2 : S2x512x1.Broadcasts S2x512x1024) (b : Fin 2) (r : Fin 512) (t : Fin 1024) :
    broadcastTo S2x512x1024 (shapeCast S2x512x1 x h1) h2 (ix3 b r t) = x (ix2 b r) :=
  Cert.Lib.Keepdims.castCol_broadcast_apply x h1 h2 b r t

end Cert.KernelIdeal.BlockOps

end
-- ==== Proof.BlockReduce.lean ====
/-
  A row's maximum and a row's sum over the last axis of a [2, 512, 1024] array, at the ideal values, read at row
  (b, r): the maximum is the fold of max from the accumulator's value over the 1024 entries (b, r, k), the sum is
  the sum of those entries. The entry of the source that coordinate k of the reduced axis names, with the kept
  coordinates (b, r), is (b, r, k).
-/
import proofs.«122325_j4355096838799_2_alg».proof.Proof.Gen.KernelIdeal
import Idealize.ShloMosaic.Lib.ValueIdx
import Idealize.ShloMosaic.PureOps.Ideal.Laws

noncomputable section

namespace Cert.KernelIdeal.BlockReduce

open Cert.KernelIdeal Idealize.ShloMosaic Idealize.ShloMosaic.ValueIdx

/-- The kept coordinates (b, r) with coordinate k inserted on the reduced last axis name the entry (b, r, k). -/
theorem lift_last (h : S2x512x1024.Reduces [2] S2x512) (b : Fin 2) (r : Fin 512) (k : Fin 1024) :
    h.lift (ix2 b r) k = ix3 b r k :=
  funext fun ax => Fin.ext (by match ax with | ⟨0, _⟩ => rfl | ⟨1, _⟩ => rfl | ⟨2, _⟩ => rfl)

/-- The maximum over the last axis, from the accumulator −∞, at row (b, r): the fold of max over the row's entries. -/
theorem rowMax_apply (v : FVec Ideal S2x512x1024 .f32) (h : S2x512x1024.Reduces [2] S2x512) (hφ : FKind.Formats .f32)
    (hacc : (0xFF800000#32 : BitVec (FTy.bits .f32)) = FKind.maximumf.neutral .f32 hφ) (b : Fin 2) (r : Fin 512) :
    multiReduction .maximumf [2] S2x512 v 0xFF800000#32 h hφ hacc (ix2 b r)
      = (Finset.univ : Finset (Fin 1024)).fold max (Ideal.ofBits .f32 0xFF800000#32) (fun k => v (ix3 b r k)) := by
  refine (Ideal.multiReduction_maximumf_single v _ h hφ hacc (ix2 b r)).trans ?_
  have e : (v ∘ h.lift (ix2 b r)) = fun k : Fin 1024 => v (ix3 b r k) :=
    funext fun k => congrArg v (lift_last h b r k)
  exact congrArg (fun f : Fin 1024 → EReal => (Finset.univ : Finset (Fin 1024)).fold max (Ideal.ofBits .f32 0xFF800000#32) f) e

/-- The sum over the last axis, from the accumulator 0, at row (b, r): the sum of the row's entries. -/
theorem rowSum_apply (v : FVec Ideal S2x512x1024 .f32) (h : S2x512x1024.Reduces [2] S2x512) (hφ : FKind.Formats .f32)
    (hacc : (0x00000000#32 : BitVec (FTy.bits .f32)) = FKind.add.neutral .f32 hφ) (b : Fin 2) (r : Fin 512) :
    multiReduction .add [2] S2x512 v 0x00000000#32 h hφ hacc (ix2 b r) = ∑ k : Fin 1024, v (ix3 b r k) := by
  refine (Ideal.multiReduction_add_single v _ h hφ hacc (ix2 b r)).trans ?_
  exact Finset.sum_congr rfl fun k _ => congrArg v (lift_last h b r k)

end Cert.KernelIdeal.BlockReduce

end
-- ==== Proof.BlockDots.lean ====
/-
  The kernel body's two batched matrix products, into a zero accumulator, at the ideal values, read at an index:
  queries [2, 512, 64] against keys [2, 1024, 64], contracting the 64 features, give at (b, r, t) the sum over e of
  lhs (b, r, e) · rhs (b, t, e); weights [2, 512, 1024] against values [2, 1024, 64], contracting the 1024 key
  positions, give at (b, r, d) the sum over t of lhs (b, r, t) · rhs (b, t, d). The batch axis of each operand reads
  the result's first coordinate, a free axis the result's coordinate at its place, the contracted axis the
  summation variable.
-/
import proofs.«122325_j4355096838799_2_alg».proof.Proof.Gen.KernelIdeal
import Idealize.ShloMosaic.Lib.ValueIdx
import Idealize.ShloMosaic.PureOps.Ideal.Laws

noncomputable section

namespace Cert.KernelIdeal.BlockDots

open Cert.KernelIdeal Idealize.ShloMosaic Idealize.ShloMosaic.ValueIdx

/-- The dimension numbers of queries against keys. -/
abbrev dotQK : DotDims S2x512x64 S2x1024x64 S2x512x1024 := dot_S2x512x64_S2x1024x64_S2x512x1024_2_2_1_1_0_0
/-- The dimension numbers of weights against values. -/
abbrev dotPV : DotDims S2x512x1024 S2x1024x64 S2x512x64 := dot_S2x512x1024_S2x1024x64_S2x512x64_2_1_1_2_0_0

/-! ## Queries against keys -/

theorem qk_lhs_0 (i : S2x512x1024.Idx) (q : dotQK.contr.Idx) : (dotQK.lhsIdx i q 0).val = (i 0).val := by
  unfold DotDims.lhsIdx
  rw [dif_pos (show (0 : Fin S2x512x64.rank) ∈ dotQK.lhsBatch by decide)]
  rfl
theorem qk_lhs_1 (i : S2x512x1024.Idx) (q : dotQK.contr.Idx) : (dotQK.lhsIdx i q 1).val = (i 1).val := by
  unfold DotDims.lhsIdx
  rw [dif_neg (show ¬(1 : Fin S2x512x64.rank) ∈ dotQK.lhsBatch by decide), dif_pos (show (1 : Fin S2x512x64.rank) ∈ dotQK.lhsNonContracting by decide)]
  rfl
theorem qk_lhs_2 (i : S2x512x1024.Idx) (q : dotQK.contr.Idx) : (dotQK.lhsIdx i q 2).val = (q ⟨0, by decide⟩).val :=
  dotQK.lhsIdx_val_of_single rfl i q
theorem qk_rhs_0 (i : S2x512x1024.Idx) (q : dotQK.contr.Idx) : (dotQK.rhsIdx i q 0).val = (i 0).val := by
  unfold DotDims.rhsIdx
  rw [dif_pos (show (0 : Fin S2x1024x64.rank) ∈ dotQK.rhsBatch by decide)]
  rfl
theorem qk_rhs_1 (i : S2x512x1024.Idx) (q : dotQK.contr.Idx) : (dotQK.rhsIdx i q 1).val = (i 2).val := by
  unfold DotDims.rhsIdx
  rw [dif_neg (show ¬(1 : Fin S2x1024x64.rank) ∈ dotQK.rhsBatch by decide), dif_pos (show (1 : Fin S2x1024x64.rank) ∈ dotQK.rhsNonContracting by decide)]
  rfl
theorem qk_rhs_2 (i : S2x512x1024.Idx) (q : dotQK.contr.Idx) : (dotQK.rhsIdx i q 2).val = (q ⟨0, by decide⟩).val :=
  dotQK.rhsIdx_val_of_single rfl i q

/-- Queries against keys at (b, r, t): the sum over the 64 features. -/
theorem qk_apply (lhs : FVec Ideal S2x512x64 .bf16) (rhs : FVec Ideal S2x1024x64 .bf16) (b : Fin 2) (r : Fin 512) (t : Fin 1024) :
    matmul dotQK none lhs rhs (constant S2x512x1024 .f32 0x00000000#32) (ix3 b r t)
      = ∑ e : Fin 64, lhs (ix3 b r e) * rhs (ix3 b t e) := by
  simp only [matmul]
  rw [Ideal.matmul_constant_zero_apply, ← Equiv.sum_comp (ValueIdx.contrEquiv1 dotQK 64 rfl rfl).symm]
  refine Finset.sum_congr rfl fun k _ => ?_
  have hk := ValueIdx.contrEquiv1_symm_val dotQK 64 rfl rfl k
  have el : dotQK.lhsIdx (ix3 b r t) ((ValueIdx.contrEquiv1 dotQK 64 rfl rfl).symm k) = ix3 b r k := funext fun a => Fin.ext (by
    match a with
    | ⟨0, _⟩ => exact qk_lhs_0 _ _
    | ⟨1, _⟩ => exact qk_lhs_1 _ _
    | ⟨2, _⟩ => exact (qk_lhs_2 _ _).trans hk)
  have er : dotQK.rhsIdx (ix3 b r t) ((ValueIdx.contrEquiv1 dotQK 64 rfl rfl).symm k) = ix3 b t k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ## Weights against values -/

theorem pv_lhs_0 (i : S2x512x64.Idx) (q : dotPV.contr.Idx) : (dotPV.lhsIdx i q 0).val = (i 0).val := by
  unfold DotDims.lhsIdx
  rw [dif_pos (show (0 : Fin S2x512x1024.rank) ∈ dotPV.lhsBatch by decide)]
  rfl
theorem pv_lhs_1 (i : S2x512x64.Idx) (q : dotPV.contr.Idx) : (dotPV.lhsIdx i q 1).val = (i 1).val := by
  unfold DotDims.lhsIdx
  rw [dif_neg (show ¬(1 : Fin S2x512x1024.rank) ∈ dotPV.lhsBatch by decide), dif_pos (show (1 : Fin S2x512x1024.rank) ∈ dotPV.lhsNonContracting by decide)]
  rfl
theorem pv_lhs_2 (i : S2x512x64.Idx) (q : dotPV.contr.Idx) : (dotPV.lhsIdx i q 2).val = (q ⟨0, by decide⟩).val :=
  dotPV.lhsIdx_val_of_single rfl i q
theorem pv_rhs_0 (i : S2x512x64.Idx) (q : dotPV.contr.Idx) : (dotPV.rhsIdx i q 0).val = (i 0).val := by
  unfold DotDims.rhsIdx
  rw [dif_pos (show (0 : Fin S2x1024x64.rank) ∈ dotPV.rhsBatch by decide)]
  rfl
theorem pv_rhs_1 (i : S2x512x64.Idx) (q : dotPV.contr.Idx) : (dotPV.rhsIdx i q 1).val = (q ⟨0, by decide⟩).val :=
  dotPV.rhsIdx_val_of_single rfl i q
theorem pv_rhs_2 (i : S2x512x64.Idx) (q : dotPV.contr.Idx) : (dotPV.rhsIdx i q 2).val = (i 2).val := by
  unfold DotDims.rhsIdx
  rw [dif_neg (show ¬(2 : Fin S2x1024x64.rank) ∈ dotPV.rhsBatch by decide), dif_pos (show (2 : Fin S2x1024x64.rank) ∈ dotPV.rhsNonContracting by decide)]
  rfl

/-- Weights against values at (b, r, d): the sum over the 1024 key positions. -/
theorem pv_apply (lhs : FVec Ideal S2x512x1024 .bf16) (rhs : FVec Ideal S2x1024x64 .bf16) (b : Fin 2) (r : Fin 512) (d : Fin 64) :
    matmul dotPV none lhs rhs (constant S2x512x64 .f32 0x00000000#32) (ix3 b r d)
      = ∑ t : Fin 1024, lhs (ix3 b r t) * rhs (ix3 b t d) := by
  simp only [matmul]
  rw [Ideal.matmul_constant_zero_apply, ← Equiv.sum_comp (ValueIdx.contrEquiv1 dotPV 1024 rfl rfl).symm]
  refine Finset.sum_congr rfl fun k _ => ?_
  have hk := ValueIdx.contrEquiv1_symm_val dotPV 1024 rfl rfl k
  have el : dotPV.lhsIdx (ix3 b r d) ((ValueIdx.contrEquiv1 dotPV 1024 rfl rfl).symm k) = ix3 b r k := funext fun a => Fin.ext (by
    match a with
    | ⟨0, _⟩ => exact pv_lhs_0 _ _
    | ⟨1, _⟩ => exact pv_lhs_1 _ _
    | ⟨2, _⟩ => exact (pv_lhs_2 _ _).trans hk)
  have er : dotPV.rhsIdx (ix3 b r d) ((ValueIdx.contrEquiv1 dotPV 1024 rfl rfl).symm k) = ix3 b k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

end Cert.KernelIdeal.BlockDots

end
-- ==== Proof.BlockValue.lean ====
/-
  What the kernel body computes from its four input blocks, at the ideal values, read at an index. The body's
  arithmetic is three stages: the logits [2, 512, 1024] of the query block against the key block, scaled by 1/8 and
  biased by (1 − mask) · (−10000); the row softmax of the logits (each row's maximum from −∞, the shifted
  exponentials, their row sum, the quotient); and the weights against the value block. The changes of float format
  on the way into the two products are the identity at the ideal values. Entry (b, 0, r, d) of the stored block is
      Σ_t weight (logits of row (b, r)) t · values (b, 0, t, d),
  and when the query and mask blocks hold rows qi·512 + r of head n of the arrays, and the key and value blocks hold
  head n whole, this is attention's result at batch b, head n, position qi·512 + r, feature d.
-/
import proofs.«122325_j4355096838799_2_alg».proof.Proof.BlockStages
import proofs.«122325_j4355096838799_2_alg».proof.Proof.Attention
import proofs.«122325_j4355096838799_2_alg».proof.Proof.BlockOps
import proofs.«122325_j4355096838799_2_alg».proof.Proof.BlockReduce
import proofs.«122325_j4355096838799_2_alg».proof.Proof.BlockDots

noncomputable section

namespace Cert.KernelIdeal.BlockValue

open Cert.KernelIdeal Cert.KernelIdeal.Gen Idealize.ShloMosaic Idealize.ShloMosaic.ValueIdx Cert.Attention
open Cert.KernelIdeal.BlockStages

/-! ## Each stage read at an index -/

theorem scoresOf_apply (x0 : Vec Ideal S2x1x512x64 .f32) (x1 : Vec Ideal S2x1x1024x64 .f32) (x3 : Vec Ideal S1x1x512x1024 .f32)
    (b : Fin 2) (r : Fin 512) (t : Fin 1024) :
    scoresOf x0 x1 x3 (ix3 b r t)
      = logit (∑ e : Fin 64, x0 (ix4 b (0 : Fin 1) r e) * x1 (ix4 b (0 : Fin 1) t e)) (x3 (ix4 (0 : Fin 1) (0 : Fin 1) r t)) := by
  unfold scoresOf logit
  rw [addf_apply, mulf_apply, BlockDots.qk_apply, BlockOps.batchBroadcast, mulf_apply, subf_apply, BlockOps.dropUnit_mask]
  simp only [broadcast_apply, truncf_apply, BlockOps.dropUnit_q, BlockOps.dropUnit_kv]
  rfl

theorem rowMaxOf_apply (s : FVec Ideal S2x512x1024 .f32) (b : Fin 2) (r : Fin 512) :
    rowMaxOf s (ix2 b r) = rowMax (fun u : Fin 1024 => s (ix3 b r u)) := by
  unfold rowMaxOf rowMax
  rw [maximumf_apply, broadcast_apply, Ideal.ofBits_def]
  have h := BlockReduce.rowMax_apply s reduces_S2x512x1024_S2x512 (.inl rfl) rfl b r
  rw [h]

theorem shiftedOf_apply (s : FVec Ideal S2x512x1024 .f32) (b : Fin 2) (r : Fin 512) (t : Fin 1024) :
    shiftedOf s (ix3 b r t) = shifted (fun u : Fin 1024 => s (ix3 b r u)) t := by
  unfold shiftedOf shifted
  refine congrArg (fun z : EReal => Ideal.exp (s (ix3 b r t) - z)) ?_
  exact (BlockOps.rowBroadcast _ _ _ b r t).trans (rowMaxOf_apply s b r)

theorem softmaxOf_apply (s : FVec Ideal S2x512x1024 .f32) (b : Fin 2) (r : Fin 512) (t : Fin 1024) :
    softmaxOf s (ix3 b r t) = weight (fun u : Fin 1024 => s (ix3 b r u)) t := by
  unfold softmaxOf weight
  refine (divf_apply _ _ _).trans ?_
  refine congrArg₂ Ideal.div (shiftedOf_apply s b r t) ?_
  refine (BlockOps.rowBroadcast _ _ _ b r t).trans ?_
  refine (BlockReduce.rowSum_apply (shiftedOf s) _ _ _ b r).trans ?_
  exact Finset.sum_congr rfl fun u _ => shiftedOf_apply s b r u

theorem contextOf_apply (p : FVec Ideal S2x512x1024 .f32) (x2 : Vec Ideal S2x1x1024x64 .f32) (b : Fin 2) (r : Fin 512) (d : Fin 64) :
    contextOf p x2 (ix3 b r d) = ∑ t : Fin 1024, p (ix3 b r t) * x2 (ix4 b (0 : Fin 1) t d) := by
  unfold contextOf
  refine (BlockDots.pv_apply _ _ b r d).trans ?_
  refine Finset.sum_congr rfl fun t _ => ?_
  exact congrArg (p (ix3 b r t) * ·) (BlockOps.dropUnit_kv x2 _ b t d)

/-! ## The stored block -/

/-- Entry (b, 0, r, d) of the block the body stores, from its four input blocks. -/
theorem payload_apply (x0 : Vec Ideal S2x1x512x64 .f32) (x1 x2 : Vec Ideal S2x1x1024x64 .f32) (x3 : Vec Ideal S1x1x512x1024 .f32)
    (b : Fin 2) (u : Fin 1) (r : Fin 512) (d : Fin 64) :
    k0_pay1 (k0_pay2 (F := Ideal) x0 x1 x2 x3) (ix4 b u r d)
      = ∑ t : Fin 1024, weight (fun t' : Fin 1024 =>
            logit (∑ e : Fin 64, x0 (ix4 b (0 : Fin 1) r e) * x1 (ix4 b (0 : Fin 1) t' e)) (x3 (ix4 (0 : Fin 1) (0 : Fin 1) r t'))) t
          * x2 (ix4 b (0 : Fin 1) t d) := by
  rw [pay2_eq]
  unfold k0_pay1
  refine (BlockOps.addUnit_out _ _ b u r d).trans ?_
  refine (contextOf_apply _ x2 b r d).trans ?_
  refine Finset.sum_congr rfl fun t _ => ?_
  refine congrArg (· * x2 (ix4 b (0 : Fin 1) t d)) ?_
  refine (softmaxOf_apply _ b r t).trans ?_
  exact congrArg (fun s : Fin 1024 → EReal => weight s t) (funext fun t' => scoresOf_apply x0 x1 x3 b r t')

/-- Row `r` of query block `qi` is position qi·512 + r. -/
def rowOf (qi : Fin 2) (r : Fin 512) : Fin 1024 :=
  ⟨qi.val * 512 + r.val, by have := qi.isLt; have := r.isLt; omega⟩

/-- When the query and mask blocks hold rows qi·512 + r of head n, and the key and value blocks head n whole, the
    stored block's entry (b, 0, r, d) is attention's result at batch b, head n, position qi·512 + r, feature d. -/
theorem attend_block (Q K V : SQ.Idx → EReal) (M : SM.Idx → EReal)
    (x0 : Vec Ideal S2x1x512x64 .f32) (x1 x2 : Vec Ideal S2x1x1024x64 .f32) (x3 : Vec Ideal S1x1x512x1024 .f32)
    (n : Fin 16) (qi : Fin 2)
    (h0 : ∀ (b : Fin 2) (r : Fin 512) (e : Fin 64), x0 (ix4 b (0 : Fin 1) r e) = Q (ix4 b n (rowOf qi r) e))
    (h1 : ∀ (b : Fin 2) (t : Fin 1024) (e : Fin 64), x1 (ix4 b (0 : Fin 1) t e) = K (ix4 b n t e))
    (h2 : ∀ (b : Fin 2) (t : Fin 1024) (d : Fin 64), x2 (ix4 b (0 : Fin 1) t d) = V (ix4 b n t d))
    (h3 : ∀ (r : Fin 512) (t : Fin 1024), x3 (ix4 (0 : Fin 1) (0 : Fin 1) r t) = M (ix4 (0 : Fin 1) n (rowOf qi r) t))
    (b : Fin 2) (u : Fin 1) (r : Fin 512) (d : Fin 64) :
    k0_pay1 (k0_pay2 (F := Ideal) x0 x1 x2 x3) (ix4 b u r d) = attend Q K V M b n (rowOf qi r) d := by
  rw [payload_apply]
  unfold attend scores
  simp only [h0, h1, h2, h3]

end Cert.KernelIdeal.BlockValue

end
-- ==== Proof.RegionValue.lean ====
/-
  The array the kernel's region leaves: attention's result in the layout [batch, head, position, feature], as one
  function of the four argument arrays as the region finds them.

  The grid has 16 × 2 points (head n, query block qi). At point (n, qi) the query block is rows qi·512 … qi·512 + 511
  of head n for both batch entries, the key and value blocks are head n whole, the mask block is the same rows of
  head n's mask, and the block written back is the same rows of head n of the result. So what a point writes back is
  that block of the one whole-array function; the 32 blocks tile the result array, the one holding index
  (b, n, f, h) being the block of point (n, f / 512); hence the array after the run is that function.
-/
import proofs.«122325_j4355096838799_2_alg».proof.Proof.Gen.KernelIdeal.Frame
import proofs.«122325_j4355096838799_2_alg».proof.Proof.BlockValue
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx Cert.Attention Cert.KernelIdeal.BlockValue
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The index maps over the grid: every window sits at batch block 0 and feature block 0; the query, mask and
    result windows move together over heads and query blocks; the key and value windows follow the head only. -/
theorem idx_facts : ∀ t : Fin cfg0.N,
    win0_4.index t (0 : Fin 4) = 0 ∧ win0_4.index t (1 : Fin 4) ≤ 15 ∧ win0_4.index t (2 : Fin 4) ≤ 1 ∧ win0_4.index t (3 : Fin 4) = 0
    ∧ win0_0.index t (0 : Fin 4) = 0 ∧ win0_0.index t (1 : Fin 4) = win0_4.index t (1 : Fin 4)
      ∧ win0_0.index t (2 : Fin 4) = win0_4.index t (2 : Fin 4) ∧ win0_0.index t (3 : Fin 4) = 0
    ∧ win0_1.index t (0 : Fin 4) = 0 ∧ win0_1.index t (1 : Fin 4) = win0_4.index t (1 : Fin 4)
      ∧ win0_1.index t (2 : Fin 4) = 0 ∧ win0_1.index t (3 : Fin 4) = 0
    ∧ win0_2.index t (0 : Fin 4) = 0 ∧ win0_2.index t (1 : Fin 4) = win0_4.index t (1 : Fin 4)
      ∧ win0_2.index t (2 : Fin 4) = 0 ∧ win0_2.index t (3 : Fin 4) = 0
    ∧ win0_3.index t (0 : Fin 4) = 0 ∧ win0_3.index t (1 : Fin 4) = win0_4.index t (1 : Fin 4)
      ∧ win0_3.index t (2 : Fin 4) = win0_4.index t (2 : Fin 4) ∧ win0_3.index t (3 : Fin 4) = 0 :=
  (by decide +kernel : ∀ t : Fin grid0.N, _)

/-- Every (head, query block) is some point's. -/
theorem idx_onto : ∀ (n : Fin 16) (qi : Fin 2), ∃ t : Fin cfg0.N, win0_4.index t = ![0, n.val, qi.val, 0] :=
  (by decide +kernel : ∀ (n : Fin 16) (qi : Fin 2), ∃ t : Fin grid0.N, win0_4.index t = ![0, n.val, qi.val, 0])

/-! ## The input blocks read off the arrays -/

/-- The query block at a point of head n and query block qi: entry (b, 0, r, e) is the queries' (b, n, qi·512 + r, e). -/
theorem read0 (c : Dev nD) (t : Fin cfg0.N) (n : Fin 16) (qi : Fin 2)
    (e0 : win0_0.index t (0 : Fin 4) = 0) (e1 : win0_0.index t (1 : Fin 4) = n.val)
    (e2 : win0_0.index t (2 : Fin 4) = qi.val) (e3 : win0_0.index t (3 : Fin 4) = 0)
    (b : Fin 2) (r : Fin 512) (e : Fin 64) :
    iblk m c 0 t (ix4 b (0 : Fin 1) r e) = V m c main_arg0 (ix4 b n (rowOf qi r) e) := by
  show V m c main_arg0 (((cfg0.win 0).blk t).view.emb (ix4 b (0 : Fin 1) r e)) = V m c main_arg0 (ix4 b n (rowOf qi r) e)
  refine congrArg (V m c main_arg0) (funext fun a => Fin.ext ?_)
  match a with
  | ⟨0, _⟩ => show win0_0.index t (0 : Fin 4) * 2 + 1 * b.val = b.val; rw [e0]; omega
  | ⟨1, _⟩ => show win0_0.index t (1 : Fin 4) * 1 + 1 * 0 = n.val; rw [e1]; omega
  | ⟨2, _⟩ => show win0_0.index t (2 : Fin 4) * 512 + 1 * r.val = qi.val * 512 + r.val; rw [e2]; omega
  | ⟨3, _⟩ => show win0_0.index t (3 : Fin 4) * 64 + 1 * e.val = e.val; rw [e3]; omega

/-- The key block at a point of head n: entry (b, 0, u, e) is the keys' (b, n, u, e). -/
theorem read1 (c : Dev nD) (t : Fin cfg0.N) (n : Fin 16)
    (e0 : win0_1.index t (0 : Fin 4) = 0) (e1 : win0_1.index t (1 : Fin 4) = n.val)
    (e2 : win0_1.index t (2 : Fin 4) = 0) (e3 : win0_1.index t (3 : Fin 4) = 0)
    (b : Fin 2) (u : Fin 1024) (e : Fin 64) :
    iblk m c 1 t (ix4 b (0 : Fin 1) u e) = V m c main_arg1 (ix4 b n u e) := by
  show V m c main_arg1 (((cfg0.win 1).blk t).view.emb (ix4 b (0 : Fin 1) u e)) = V m c main_arg1 (ix4 b n u e)
  refine congrArg (V m c main_arg1) (funext fun a => Fin.ext ?_)
  match a with
  | ⟨0, _⟩ => show win0_1.index t (0 : Fin 4) * 2 + 1 * b.val = b.val; rw [e0]; omega
  | ⟨1, _⟩ => show win0_1.index t (1 : Fin 4) * 1 + 1 * 0 = n.val; rw [e1]; omega
  | ⟨2, _⟩ => show win0_1.index t (2 : Fin 4) * 1024 + 1 * u.val = u.val; rw [e2]; omega
  | ⟨3, _⟩ => show win0_1.index t (3 : Fin 4) * 64 + 1 * e.val = e.val; rw [e3]; omega

/-- The value block at a point of head n: entry (b, 0, u, d) is the values' (b, n, u, d). -/
theorem read2 (c : Dev nD) (t : Fin cfg0.N) (n : Fin 16)
    (e0 : win0_2.index t (0 : Fin 4) = 0) (e1 : win0_2.index t (1 : Fin 4) = n.val)
    (e2 : win0_2.index t (2 : Fin 4) = 0) (e3 : win0_2.index t (3 : Fin 4) = 0)
    (b : Fin 2) (u : Fin 1024) (d : Fin 64) :
    iblk m c 2 t (ix4 b (0 : Fin 1) u d) = V m c main_arg2 (ix4 b n u d) := by
  show V m c main_arg2 (((cfg0.win 2).blk t).view.emb (ix4 b (0 : Fin 1) u d)) = V m c main_arg2 (ix4 b n u d)
  refine congrArg (V m c main_arg2) (funext fun a => Fin.ext ?_)
  match a with
  | ⟨0, _⟩ => show win0_2.index t (0 : Fin 4) * 2 + 1 * b.val = b.val; rw [e0]; omega
  | ⟨1, _⟩ => show win0_2.index t (1 : Fin 4) * 1 + 1 * 0 = n.val; rw [e1]; omega
  | ⟨2, _⟩ => show win0_2.index t (2 : Fin 4) * 1024 + 1 * u.val = u.val; rw [e2]; omega
  | ⟨3, _⟩ => show win0_2.index t (3 : Fin 4) * 64 + 1 * d.val = d.val; rw [e3]; omega

/-- The mask block at a point of head n and query block qi: entry (0, 0, r, u) is the mask's (0, n, qi·512 + r, u). -/
theorem read3 (c : Dev nD) (t : Fin cfg0.N) (n : Fin 16) (qi : Fin 2)
    (e0 : win0_3.index t (0 : Fin 4) = 0) (e1 : win0_3.index t (1 : Fin 4) = n.val)
    (e2 : win0_3.index t (2 : Fin 4) = qi.val) (e3 : win0_3.index t (3 : Fin 4) = 0)
    (r : Fin 512) (u : Fin 1024) :
    iblk m c 3 t (ix4 (0 : Fin 1) (0 : Fin 1) r u) = V m c main_arg3 (ix4 (0 : Fin 1) n (rowOf qi r) u) := by
  show V m c main_arg3 (((cfg0.win 3).blk t).view.emb (ix4 (0 : Fin 1) (0 : Fin 1) r u)) = V m c main_arg3 (ix4 (0 : Fin 1) n (rowOf qi r) u)
  refine congrArg (V m c main_arg3) (funext fun a => Fin.ext ?_)
  match a with
  | ⟨0, _⟩ => show win0_3.index t (0 : Fin 4) * 1 + 1 * 0 = 0; rw [e0]
  | ⟨1, _⟩ => show win0_3.index t (1 : Fin 4) * 1 + 1 * 0 = n.val; rw [e1]; omega
  | ⟨2, _⟩ => show win0_3.index t (2 : Fin 4) * 512 + 1 * r.val = qi.val * 512 + r.val; rw [e2]; omega
  | ⟨3, _⟩ => show win0_3.index t (3 : Fin 4) * 1024 + 1 * u.val = u.val; rw [e3]; omega

/-- Where the result block's entry (b, 0, r, d) sits in the result array at a point of head n and query block qi. -/
theorem emb4 (t : Fin cfg0.N) (n : Fin 16) (qi : Fin 2)
    (e0 : win0_4.index t (0 : Fin 4) = 0) (e1 : win0_4.index t (1 : Fin 4) = n.val)
    (e2 : win0_4.index t (2 : Fin 4) = qi.val) (e3 : win0_4.index t (3 : Fin 4) = 0)
    (b : Fin 2) (u : Fin 1) (r : Fin 512) (d : Fin 64) :
    ((cfg0.win 4).blk t).view.emb (ix4 b u r d) = ix4 b n (rowOf qi r) d := by
  refine funext fun a => Fin.ext ?_
  have hu : u.val = 0 := by have := u.isLt; omega
  match a with
  | ⟨0, _⟩ => show win0_4.index t (0 : Fin 4) * 2 + 1 * b.val = b.val; rw [e0]; omega
  | ⟨1, _⟩ => show win0_4.index t (1 : Fin 4) * 1 + 1 * u.val = n.val; rw [e1, hu]; omega
  | ⟨2, _⟩ => show win0_4.index t (2 : Fin 4) * 512 + 1 * r.val = qi.val * 512 + r.val; rw [e2]; omega
  | ⟨3, _⟩ => show win0_4.index t (3 : Fin 4) * 64 + 1 * d.val = d.val; rw [e3]; omega

/-! ## What a point writes back, the cover, the array -/

/-- The result array as the region leaves it: attention of the four argument arrays as the region finds them. -/
abbrev result (c : Dev nD) : SQ.Idx → EReal :=
  headMajor (V m c main_arg0) (V m c main_arg1) (V m c main_arg2) (V m c main_arg3)

/-- What point t writes back is block t of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz4]
  simp only [View.ld_unit_zero (S := S2x1x512x64) hz4, View.ld_unit_zero (S := S2x1x1024x64) hz4,
    View.ld_unit_zero (S := S1x1x512x1024) hz4]
  obtain ⟨a0, a1, a2, a3, q0, q1, q2, q3, k0, k1, k2, k3, v0, v1, v2, v3, m0, m1, m2, m3⟩ := idx_facts t
  funext j
  obtain ⟨b, u, r, d, rfl⟩ : ∃ (b : Fin 2) (u : Fin 1) (r : Fin 512) (d : Fin 64), j = ix4 b u r d :=
    ⟨j 0, j 1, j 2, j 3, eq_ix4 j⟩
  show k0_pay1 (k0_pay2 (F := Ideal) (iblk m c 0 t) (iblk m c 1 t) (iblk m c 2 t) (iblk m c 3 t)) (ix4 b u r d)
    = result m c (((cfg0.win 4).blk t).view.emb (ix4 b u r d))
  have hn : win0_4.index t (1 : Fin 4) < 16 := by omega
  have hq : win0_4.index t (2 : Fin 4) < 2 := by omega
  rw [emb4 t ⟨win0_4.index t (1 : Fin 4), hn⟩ ⟨win0_4.index t (2 : Fin 4), hq⟩ a0 rfl rfl a3 b u r d]
  exact attend_block (V m c main_arg0) (V m c main_arg1) (V m c main_arg2) (V m c main_arg3)
    (iblk m c 0 t) (iblk m c 1 t) (iblk m c 2 t) (iblk m c 3 t)
    ⟨win0_4.index t (1 : Fin 4), hn⟩ ⟨win0_4.index t (2 : Fin 4), hq⟩
    (fun b r e => read0 m c t _ _ q0 q1 q2 q3 b r e)
    (fun b u e => read1 m c t _ k0 k1 k2 k3 b u e)
    (fun b u d => read2 m c t _ v0 v1 v2 v3 b u d)
    (fun r u => read3 m c t _ _ m0 m1 m2 m3 r u)
    b u r d

/-- An index of the result array is in point t's block iff each coordinate is in the block's range on its axis. -/
theorem mem_blk (t : Fin cfg0.N) (i : S2x16x1024x64.Idx) :
    i ∈ ((cfg0.win 4).blk t).view.set ↔ ∀ a : Fin 4, win0_4.index t a * S2x1x512x64.size a ≤ (i a).val
      ∧ (i a).val < win0_4.index t a * S2x1x512x64.size a + S2x1x512x64.size a := by
  show i ∈ ((View.whole main_v0).slice (win0_4.rect t)).set ↔ _
  rw [View.set_slice_whole, Rect.mem_set_unit]
  exact Iff.rfl

/-- Every index (b, n, f, h) of the result array is in the block of the point of head n and query block f / 512. -/
theorem cover (i : S2x16x1024x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 1024 := (i 2).isLt
  have hi3 : (i 3).val < 64 := (i 3).isLt
  obtain ⟨t, ht⟩ := idx_onto ⟨(i 1).val, hi1⟩ ⟨(i 2).val / 512, by omega⟩
  have q0 : win0_4.index t (0 : Fin 4) = 0 := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The result array after the run is attention of the argument arrays. -/
theorem final (c : Dev nD) : (dats m 0 c).arrAt 4 cfg0.N = result m c :=
  (dats m 0 c).arrAt_eq_of_cover 4 (result m c) (fun t _ => flushed_eq m c t) cover

end Cert.KernelIdeal.RegionValue

end
-- ==== Proof.KernelRun.lean ====
/-
  The idealized kernel program's run, read: every weakly fair execution terminates with the result array at
  attention of the four argument arrays, in the layout [batch, position, head, feature], and the arguments unchanged.

  The program is the region followed by one host operation, the exchange of the two middle axes of the region's
  result array. The region leaves attention in the layout [batch, head, position, feature]; the exchanged array read
  at (b, f, n, h) is that array at (b, n, f, h), which is attention's value at batch b, head n, position f,
  feature h in either layout.
-/
import proofs.«122325_j4355096838799_2_alg».proof.Proof.Gen.KernelIdeal.Frame
import proofs.«122325_j4355096838799_2_alg».proof.Proof.RegionValue
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.Attention Cert.KernelIdeal.RegionValue
open Idealize.ShloMosaic.Pipeline (Dat)

variable (m : (ℓ : Loc nD τ sig) → Buf (Elt Ideal) ℓ) (ρ : Dev nD → PrngReg)

/-- Attention of the argument arrays as launched, in the layout [batch, position, head, feature]. -/
abbrev answer (c : Dev nD) : SO.Idx → EReal :=
  positionMajor (m ((c : Thread nD τ).loc main_arg0)) (m ((c : Thread nD τ).loc main_arg1))
    (m ((c : Thread nD τ).loc main_arg2)) (m ((c : Thread nD τ).loc main_arg3))

/-- The host operation after the region leaves attention with the two middle axes exchanged. -/
theorem tail_eq (c : Dev nD) :
    Pipeline.afterTail₀ cfgs (dats m) 0 (V0 m) [hostOps1] c main_v1 = answer m c := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = result m c :=
    (Pipeline.withArrays_arr spec0 launch0.win.arr_inj c _ _ 4).trans (final m c)
  rw [hA]
  funext i
  obtain ⟨b, f, n, h, rfl⟩ : ∃ (b : Fin 2) (f : Fin 1024) (n : Fin 16) (h : Fin 64), i = ix4 b f n h :=
    ⟨i 0, i 1, i 2, i 3, eq_ix4 i⟩
  refine (transpose_apply [0, 2, 1, 3] (result m c) transposes_S2x16x1024x64_S2x1024x16x64_0_2_1_3 (ix4 b f n h) (ix4 b n f h)
    (fun ax => match ax with | ⟨0, _⟩ => rfl | ⟨1, _⟩ => rfl | ⟨2, _⟩ => rfl | ⟨3, _⟩ => rfl)).trans ?_
  show headMajor (V m c main_arg0) (V m c main_arg1) (V m c main_arg2) (V m c main_arg3) (ix4 b n f h)
    = positionMajor _ _ _ _ (ix4 b f n h)
  rw [V_main_arg0, V_main_arg1, V_main_arg2, V_main_arg3]
  rfl

/-- The run: every weakly fair execution terminates with the result array at attention of the arguments, in the
    layout [batch, position, head, feature], and the four argument arrays as launched. -/
theorem run : θ_run defs (onTc (τ := τ) (main (F := Ideal))) ⟨m, fun _ => 0, ρ⟩ fun r => ∀ c : Dev nD,
      r.2.mem ((c : Thread nD τ).loc main_v1) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.RunValue

end
-- ==== Proof.ReferenceValue.lean ====
/-
  The reference program computes scaled, masked dot-product attention: read at an index, its result is the
  specification `Cert.Attention.positionMajor` of its four arguments (queries, keys, values, mask), over the
  extended reals.

  The program is a chain of array operations, and the generated module read here gives each operation's result at an
  index from its operands at an index. The proof follows one row of logits — batch b, head n, query position f —
  through that chain, at literal coordinates:

    * the logit of key position t is (Σ_e Q[b,n,f,e] · K[b,n,t,e]) · 1/8 + (1 − M[0,n,f,t]) · (−10000): the first
      contraction, the scale and the mask's bias broadcast over the batch (`logits_apply`);
    * the row's maximum is the fold of max from −∞ over the key positions, taken once more against −∞: the one
      reduction over the last axis, whose element is a fold over the row and not one element of its operand, is that
      fold because max is commutative and associative (`rowMax_apply`);
    * the maximum is broadcast back along the row, subtracted, and the exponential taken (`shifted_apply`); the
      exponentials are summed along the row from 0 (`rowSum_apply`); the sum is broadcast back and divides each
      exponential (`weight_apply`);
    * the second contraction sums value · weight over the key positions into the layout
      [batch, head, feature, position], and the final transpose reads it as [batch, position, head, feature]
      (`result_eq`). The specification multiplies weight · value; multiplication of extended reals is commutative.

  Each index map of the generated module is a match on the axis, so at an index built from literal coordinates it is
  again such an index, coordinate by coordinate by computation; these equations come first.
-/
import proofs.«122325_j4355096838799_2_alg».proof.Proof.Gen.ReferenceIdeal.Read
import proofs.«122325_j4355096838799_2_alg».proof.Proof.Attention

noncomputable section

namespace Cert.ReferenceIdeal.RefValue

open Cert.ReferenceIdeal Cert.ReferenceIdeal.Gen Cert.ReferenceIdeal.Read Cert.Attention
open Idealize.ShloMosaic Idealize.ShloMosaic.ValueIdx

/-- An array of shape [2, 16, 1024, 64] of extended reals: the queries, the keys, the values. -/
abbrev Arr := (⟨S2x16x1024x64, .f32⟩ : BufTy).Contents (Elt Ideal)
/-- An array of shape [1, 16, 1024, 1024] of extended reals: the mask. -/
abbrev Msk := (⟨S1x16x1024x1024, .f32⟩ : BufTy).Contents (Elt Ideal)

/-! ## The index maps at literal coordinates -/

/-- The first contraction reads the queries at (b, n, f, k) for the logit at (b, n, f, t) … -/
theorem lidx0 (b : Fin 2) (n : Fin 16) (f t : Fin 1024) (k : Fin 64) :
    lidx_main_v0 (ix4 b n f t) k = ix4 b n f k :=
  funext fun a => Fin.ext (by match a with | ⟨0, _⟩ => rfl | ⟨1, _⟩ => rfl | ⟨2, _⟩ => rfl | ⟨3, _⟩ => rfl)

/-- … and the keys at (b, n, t, k). -/
theorem ridx0 (b : Fin 2) (n : Fin 16) (f t : Fin 1024) (k : Fin 64) :
    ridx_main_v0 (ix4 b n f t) k = ix4 b n t k :=
  funext fun a => Fin.ext (by match a with | ⟨0, _⟩ => rfl | ⟨1, _⟩ => rfl | ⟨2, _⟩ => rfl | ⟨3, _⟩ => rfl)

/-- The mask's bias is shared by the batch: the broadcast reads it at (0, n, f, t). -/
theorem idx7 (b : Fin 2) (n : Fin 16) (f t : Fin 1024) :
    idx_main_v7 (ix4 b n f t) = ix4 (0 : Fin 1) n f t :=
  funext fun a => Fin.ext (by match a with | ⟨0, _⟩ => rfl | ⟨1, _⟩ => rfl | ⟨2, _⟩ => rfl | ⟨3, _⟩ => rfl)

/-- The row's maximum is broadcast along the row in two steps: (b, n, f, t) reads (b, n, f, 0) … -/
theorem idx13 (b : Fin 2) (n : Fin 16) (f t : Fin 1024) :
    idx_main_v13 (ix4 b n f t) = ix4 b n f (0 : Fin 1) :=
  funext fun a => Fin.ext (by match a with | ⟨0, _⟩ => rfl | ⟨1, _⟩ => rfl | ⟨2, _⟩ => rfl | ⟨3, _⟩ => rfl)

/-- … which reads (b, n, f). -/
theorem idx12 (b : Fin 2) (n : Fin 16) (f : Fin 1024) :
    idx_main_v12 (ix4 b n f (0 : Fin 1)) = ix3 b n f :=
  funext fun a => Fin.ext (by match a with | ⟨0, _⟩ => rfl | ⟨1, _⟩ => rfl | ⟨2, _⟩ => rfl)

/-- The row's sum reads the exponentials at (b, n, f, k), k over the key positions. -/
theorem idx16 (b : Fin 2) (n : Fin 16) (f k : Fin 1024) :
    idx_main_v16 (ix3 b n f) k = ix4 b n f k :=
  funext fun a => Fin.ext (by match a with | ⟨0, _⟩ => rfl | ⟨1, _⟩ => rfl | ⟨2, _⟩ => rfl | ⟨3, _⟩ => rfl)

/-- The row's sum is broadcast along the row in the same two steps: (b, n, f, t) reads (b, n, f, 0) … -/
theorem idx18 (b : Fin 2) (n : Fin 16) (f t : Fin 1024) :
    idx_main_v18 (ix4 b n f t) = ix4 b n f (0 : Fin 1) :=
  funext fun a => Fin.ext (by match a with | ⟨0, _⟩ => rfl | ⟨1, _⟩ => rfl | ⟨2, _⟩ => rfl | ⟨3, _⟩ => rfl)

/-- … which reads (b, n, f). -/
theorem idx17 (b : Fin 2) (n : Fin 16) (f : Fin 1024) :
    idx_main_v17 (ix4 b n f (0 : Fin 1)) = ix3 b n f :=
  funext fun a => Fin.ext (by match a with | ⟨0, _⟩ => rfl | ⟨1, _⟩ => rfl | ⟨2, _⟩ => rfl)

/-- The second contraction, for its element (b, n, h, f), reads the values at (b, n, k, h) … -/
theorem lidx20 (b : Fin 2) (n : Fin 16) (h : Fin 64) (f k : Fin 1024) :
    lidx_main_v20 (ix4 b n h f) k = ix4 b n k h :=
  funext fun a => Fin.ext (by match a with | ⟨0, _⟩ => rfl | ⟨1, _⟩ => rfl | ⟨2, _⟩ => rfl | ⟨3, _⟩ => rfl)

/-- … and the weights at (b, n, f, k). -/
theorem ridx20 (b : Fin 2) (n : Fin 16) (h : Fin 64) (f k : Fin 1024) :
    ridx_main_v20 (ix4 b n h f) k = ix4 b n f k :=
  funext fun a => Fin.ext (by match a with | ⟨0, _⟩ => rfl | ⟨1, _⟩ => rfl | ⟨2, _⟩ => rfl | ⟨3, _⟩ => rfl)

/-- The final transpose: the result's (b, f, n, h) is the contraction's (b, n, h, f). -/
theorem idx21 (b : Fin 2) (f : Fin 1024) (n : Fin 16) (h : Fin 64) :
    idx_main_v21 (ix4 b f n h) = ix4 b n h f :=
  funext fun a => Fin.ext (by match a with | ⟨0, _⟩ => rfl | ⟨1, _⟩ => rfl | ⟨2, _⟩ => rfl | ⟨3, _⟩ => rfl)

/-! ## One row of logits through the softmax -/

/-- The logits: at (b, n, f, t) the scaled dot product of query f and key t plus the mask's bias, the
    specification's `scores`. -/
theorem logits_apply (x0 x1 : Arr) (x3 : Msk) (b : Fin 2) (n : Fin 16) (f t : Fin 1024) :
    val_main_v8 (F := Ideal) x0 x1 x3 (ix4 b n f t) = scores x0 x1 x3 b n f t := by
  rw [val_main_v8_apply, val_main_v2_apply, val_main_v0_apply, val_main_v1_apply, val_main_cst_apply,
    val_main_v7_apply, val_main_v6_apply, val_main_v4_apply, val_main_v3_apply, val_main_cst_0_apply,
    val_main_v5_apply, val_main_cst_1_apply, idx7]
  simp only [lidx0, ridx0]
  rfl

/-- The last axis of [2, 16, 1024, 1024] reduces onto [2, 16, 1024]. -/
theorem rowReduces : S2x16x1024x1024.Reduces [3] S2x16x1024 := by decide

/-- Inserting the key position k into (b, n, f) on the reduced axis gives (b, n, f, k). -/
theorem lift_eq (b : Fin 2) (n : Fin 16) (f : Fin 1024) (k : Fin 1024) :
    rowReduces.lift (ix3 b n f) k = ix4 b n f k :=
  funext fun a => Fin.ext (by match a with | ⟨0, _⟩ => rfl | ⟨1, _⟩ => rfl | ⟨2, _⟩ => rfl | ⟨3, _⟩ => rfl)

/-- The row's maximum: the reduction of the logits over the key axis with max from −∞ is the fold of max over the
    row, max being commutative and associative; the program then takes it once more against −∞. -/
theorem rowMax_apply (x0 x1 : Arr) (x3 : Msk) (b : Fin 2) (n : Fin 16) (f : Fin 1024) :
    val_main_v11 (F := Ideal) x0 x1 x3 (ix3 b n f) = rowMax (scores x0 x1 x3 b n f) := by
  rw [val_main_v11_apply, val_main_v10_apply, val_main_cst_3_apply]
  unfold val_main_v9
  rw [Host.reduce_eq_fold_single FloatOps.maximumf _ _ reducesTo_S2x16x1024x1024_S2x16x1024_d3 rowReduces h_S_
    (ix3 b n f)]
  have hrow : (val_main_v8 (F := Ideal) x0 x1 x3 ∘ rowReduces.lift (ix3 b n f)) = scores x0 x1 x3 b n f :=
    funext fun k =>
      (congrArg (val_main_v8 (F := Ideal) x0 x1 x3) (lift_eq b n f k)).trans (logits_apply x0 x1 x3 b n f k)
  rw [hrow]
  rfl

/-- The exponential of a logit less its row's maximum. -/
theorem shifted_apply (x0 x1 : Arr) (x3 : Msk) (b : Fin 2) (n : Fin 16) (f t : Fin 1024) :
    val_main_v15 (F := Ideal) x0 x1 x3 (ix4 b n f t) = shifted (scores x0 x1 x3 b n f) t := by
  rw [val_main_v15_apply, val_main_v14_apply, val_main_v13_apply, idx13, val_main_v12_apply, idx12, rowMax_apply,
    logits_apply]
  rfl

/-- The row's sum of those exponentials: the program sums from the f32 word 0, which is the number 0. -/
theorem rowSum_apply (x0 x1 : Arr) (x3 : Msk) (b : Fin 2) (n : Fin 16) (f : Fin 1024) :
    val_main_v16 (F := Ideal) x0 x1 x3 (ix3 b n f) = ∑ u : Fin 1024, shifted (scores x0 x1 x3 b n f) u := by
  rw [val_main_v16_apply, val_main_cst_4_apply, Ideal.ofBits_def, Ideal.ofBits_zero_f32, zero_add]
  refine Finset.sum_congr rfl fun k _ => ?_
  rw [idx16, shifted_apply]

/-- The softmax weight: the exponential divided by its row's sum. -/
theorem weight_apply (x0 x1 : Arr) (x3 : Msk) (b : Fin 2) (n : Fin 16) (f t : Fin 1024) :
    val_main_v19 (F := Ideal) x0 x1 x3 (ix4 b n f t) = weight (scores x0 x1 x3 b n f) t := by
  rw [val_main_v19_apply, val_main_v18_apply, idx18, val_main_v17_apply, idx17, rowSum_apply, shifted_apply]
  rfl

/-! ## The result -/

/-- THE REFERENCE'S VALUE: its result, of shape [2, 1024, 16, 64], is attention in the layout
    [batch, position, head, feature]. At (b, f, n, h) the transpose reads the second contraction at (b, n, h, f),
    which is Σ_t V[b,n,t,h] · weight t over the row (b, n, f): the specification's sum with each product commuted. -/
theorem result_eq (x0 x1 x2 : (⟨Cert.ReferenceIdeal.S2x16x1024x64, .f32⟩ : BufTy).Contents (Elt Ideal))
    (x3 : (⟨Cert.ReferenceIdeal.S1x16x1024x1024, .f32⟩ : BufTy).Contents (Elt Ideal)) :
    Cert.ReferenceIdeal.Read.val_main_v21 (F := Ideal) x0 x1 x2 x3 = Cert.Attention.positionMajor x0 x1 x2 x3 := by
  funext i
  obtain ⟨b, f, n, h, rfl⟩ : ∃ (b : Fin 2) (f : Fin 1024) (n : Fin 16) (h : Fin 64), i = ix4 b f n h :=
    ⟨i 0, i 1, i 2, i 3, eq_ix4 i⟩
  rw [val_main_v21_apply, idx21, val_main_v20_apply]
  show _ = ∑ t : Fin 1024, weight (scores x0 x1 x3 b n f) t * x2 (ix4 b n t h)
  refine Finset.sum_congr rfl fun k _ => ?_
  rw [lidx20, ridx20, weight_apply, mul_comm]

end Cert.ReferenceIdeal.RefValue

end
-- ==== Proof.lean ====
/-
  The certificate of a block-sparse attention kernel, written as masked dense attention, against its reference.

  Both programs compute, for queries, keys and values of shape [2, 16, 1024, 64] and a mask of shape
  [1, 16, 1024, 1024], the array out[b, f, n, h] = Σ_t softmax_t((Q[b,n,f,·] · K[b,n,t,·]) / 8
  + (1 − M[0,n,f,t]) · (−10000)) · V[b,n,t,h]. The kernel works head by head on blocks of 512 query positions with
  the whole key axis in one block, so each row's softmax is taken in one piece, and a host operation exchanges the
  head and position axes afterwards; the reference contracts, normalizes and contracts whole arrays and transposes
  at the end. At the ideal values the changes of float format are the identity, both sides take the row maximum
  from −∞, the same exponentials, the same row sum and the same quotient, and the only difference left is the order
  of the two factors in the last contraction, which multiplication of extended reals does not see. No finiteness of
  the inputs is used.

  The three frames: the kernel's two are the generated frame runs; the reference's is its generated run with the
  result dropped. The idealization rewrote no operation, so there is nothing to preserve. The algebraic claim sets
  the kernel's run (the region's array is attention in the layout [batch, head, position, feature]; the host
  operation after it exchanges the middle axes) beside the reference's run (its result term, read operation by
  operation at an index, is attention in the layout [batch, position, head, feature]).
-/
import proofs.«122325_j4355096838799_2_alg».proof.Defs
import proofs.«122325_j4355096838799_2_alg».proof.Proof.Gen.Kernel
import proofs.«122325_j4355096838799_2_alg».proof.Proof.Gen.Kernel.Skeleton
import proofs.«122325_j4355096838799_2_alg».proof.Proof.Gen.Kernel.Launch
import proofs.«122325_j4355096838799_2_alg».proof.Proof.Gen.Kernel.Points
import proofs.«122325_j4355096838799_2_alg».proof.Proof.Gen.Kernel.Frame
import proofs.«122325_j4355096838799_2_alg».proof.Proof.Gen.KernelIdeal
import proofs.«122325_j4355096838799_2_alg».proof.Proof.Gen.KernelIdeal.Skeleton
import proofs.«122325_j4355096838799_2_alg».proof.Proof.Gen.KernelIdeal.Launch
import proofs.«122325_j4355096838799_2_alg».proof.Proof.Gen.KernelIdeal.Points
import proofs.«122325_j4355096838799_2_alg».proof.Proof.Gen.KernelIdeal.Frame
import proofs.«122325_j4355096838799_2_alg».proof.Proof.Gen.ReferenceIdeal
import proofs.«122325_j4355096838799_2_alg».proof.Proof.Gen.Pre_finite_inputs
import proofs.«122325_j4355096838799_2_alg».proof.Proof.Gen.ReferenceIdeal.Read
import proofs.«122325_j4355096838799_2_alg».proof.Proof.KernelRun
import proofs.«122325_j4355096838799_2_alg».proof.Proof.ReferenceValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments both idealized programs end with the result at attention of the
    arguments in the layout [batch, position, head, feature]. -/
theorem algebraic : Cert.algebraic_KernelIdeal_ReferenceIdeal := by
  intro m ρ m' ρ' _ hagree
  refine ⟨fun c => Cert.KernelIdeal.RunValue.answer m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
